-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x56x56 : Shape := ⟨4, ![16, 512, 56, 56]⟩
abbrev S_ : Shape := ⟨0, ![]⟩

class Facts : Prop where
  bcast_S_S16x512x56x56 : S_.BroadcastsInDim S16x512x56x56 (![] : Fin 0 → Fin S16x512x56x56.rank)
  reducesTo_S16x512x56x56_S_d0_1_2_3 : S16x512x56x56.ReducesTo [0, 1, 2, 3] S_
  h_S_ : 0 < S_.numel

variable [Facts]

def fn {F : FTy → Type} [FloatOps F] (main_arg0 : FVec F S16x512x56x56 .f32) : IVec S_ 1 :=
  let main_v0 : FVec F S16x512x56x56 .f32 := Host.absf main_arg0
  let main_cst : FVec F S_ .f32 := constant S_ .f32 0x7F800000#32
  let main_v1 : FVec F S16x512x56x56 .f32 := broadcastInDim S16x512x56x56 ![] bcast_S_S16x512x56x56 main_cst
  let main_v2 : IVec S16x512x56x56 1 := cmpf .olt main_v0 main_v1
  let main_c : IVec S_ 1 := constantI S_ 1 1#1
  let main_v3 : IVec S_ 1 := (fun x v => Host.reduce IntOp.andi x v reducesTo_S16x512x56x56_S_d0_1_2_3 h_S_) main_v2 main_c
  main_v3
-- ==== Kernel.lean ====
abbrev S16x512x56x56 : Shape := ⟨4, ![16, 512, 56, 56]⟩
abbrev S16x512x3136 : Shape := ⟨3, ![16, 512, 3136]⟩
abbrev S1x256x3136 : Shape := ⟨3, ![1, 256, 3136]⟩
abbrev S1x512x3136 : Shape := ⟨3, ![1, 512, 3136]⟩
abbrev S256x3136 : Shape := ⟨2, ![256, 3136]⟩
abbrev S256 : Shape := ⟨1, ![256]⟩
abbrev S256x1 : Shape := ⟨2, ![256, 1]⟩
abbrev S512x3136 : Shape := ⟨2, ![512, 3136]⟩
abbrev S256x512 : Shape := ⟨2, ![256, 512]⟩

abbrev nBuf : Space → Nat
  | .hbm => 5
  | .vmem => 6
  | .smem => 0
  | _ => 0

abbrev bufTy : (tb : Table) → Fin (tcTables nBuf tb) → BufTy
  | .hbm, ⟨0, _⟩ => ⟨S16x512x56x56, .f32⟩
  | .hbm, ⟨1, _⟩ => ⟨S16x512x3136, .f32⟩
  | .hbm, ⟨2, _⟩ => ⟨S16x512x3136, .bf16⟩
  | .hbm, ⟨3, _⟩ => ⟨S16x512x3136, .f32⟩
  | .hbm, ⟨4, _⟩ => ⟨S16x512x56x56, .f32⟩
  | .local _ .vmem, ⟨0, _⟩ => ⟨S1x256x3136, .f32⟩
  | .local _ .vmem, ⟨1, _⟩ => ⟨S1x256x3136, .f32⟩
  | .local _ .vmem, ⟨2, _⟩ => ⟨S1x512x3136, .bf16⟩
  | .local _ .vmem, ⟨3, _⟩ => ⟨S1x512x3136, .bf16⟩
  | .local _ .vmem, ⟨4, _⟩ => ⟨S1x256x3136, .f32⟩
  | .local _ .vmem, ⟨5, _⟩ => ⟨S1x256x3136, .f32⟩
  | _, _ => ⟨S16x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x3136 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x3136 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x512x56x56_S16x512x3136 : S16x512x56x56.ShapeCasts S16x512x3136
  bitsLt_bf16_f32 : FTy.bits .bf16 < FTy.bits .f32
  inb_S1x256x3136_S1x256x3136_0_0_0 : ∀ a, (![0, 0, 0] : Fin 3 → Nat) a + S1x256x3136.size a ≤ S1x256x3136.size a
  h_S1x256x3136 : 0 < S1x256x3136.numel
  shapeCasts_S1x256x3136_S256x3136 : S1x256x3136.ShapeCasts S256x3136
  reduces_S256x3136_S256 : S256x3136.Reduces [1] S256
  shapeCasts_S256_S256x1 : S256.ShapeCasts S256x1
  broadcasts_S256x1_S256x3136 : S256x1.Broadcasts S256x3136
  inb_S1x512x3136_S1x512x3136_0_0_0 : ∀ a, (![0, 0, 0] : Fin 3 → Nat) a + S1x512x3136.size a ≤ S1x512x3136.size a
  h_S1x512x3136 : 0 < S1x512x3136.numel
  shapeCasts_S1x512x3136_S512x3136 : S1x512x3136.ShapeCasts S512x3136
  reduces_S256x512_S256 : S256x512.Reduces [1] S256
  broadcasts_S256x1_S256x512 : S256x1.Broadcasts S256x512
  shapeCasts_S256x3136_S1x256x3136 : S256x3136.ShapeCasts S1x256x3136
  shapeCasts_S16x512x3136_S16x512x56x56 : S16x512x3136.ShapeCasts S16x512x56x56
  dot_S256x3136_S512x3136_S256x512_1_1_0_0_n_n_wf : DotDims.WF S256x3136 S512x3136 S256x512 [1] [1] [0] [0] [] []
  dot_S256x512_S512x3136_S256x3136_1_0_0_1_n_n_wf : DotDims.WF S256x512 S512x3136 S256x3136 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3136.size a ≤ S16x512x3136.size a
  hwx0_0 : ∀ i : grid0.Coords, EltTy.bits .f32 = 32 ∨ (Rect.block (s := S16x512x3136) S1x256x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3136.size a ≤ S16x512x3136.size a
  hwx0_1 : ∀ i : grid0.Coords, EltTy.bits .bf16 = 32 ∨ (Rect.block (s := S16x512x3136) S1x512x3136.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x3136.size a ≤ S16x512x3136.size a
  hwx0_2 : ∀ i : grid0.Coords, EltTy.bits .f32 = 32 ∨ (Rect.block (s := S16x512x3136) S1x256x3136.size (cc0_transform_2 i) (hinb0_2 i)).WholeWords (EltTy.packing .f32)

variable [Facts₀]

def dot_S256x3136_S512x3136_S256x512_1_1_0_0_n_n : DotDims S256x3136 S512x3136 S256x512 where
  lhsContracting := [1]
  rhsContracting := [1]
  lhsNonContracting := [0]
  rhsNonContracting := [0]
  lhsBatch := []
  rhsBatch := []
  wf := dot_S256x3136_S512x3136_S256x512_1_1_0_0_n_n_wf
def dot_S256x512_S512x3136_S256x3136_1_0_0_1_n_n : DotDims S256x512 S512x3136 S256x3136 where
  lhsContracting := [1]
  rhsContracting := [0]
  lhsNonContracting := [0]
  rhsNonContracting := [1]
  lhsBatch := []
  rhsBatch := []
  wf := dot_S256x512_S512x3136_S256x3136_1_0_0_1_n_n_wf

abbrev win0_0 : Pipeline.Window sig grid0 :=
  Pipeline.Window.ofSpec (Memref.whole main_v0) S1x256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x3136.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x3136.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x56x56 : Shape := ⟨4, ![16, 512, 56, 56]⟩
abbrev S16x512x3136 : Shape := ⟨3, ![16, 512, 3136]⟩
abbrev S_ : Shape := ⟨0, ![]⟩
abbrev S16x512 : Shape := ⟨2, ![16, 512]⟩
abbrev S16x512x1 : Shape := ⟨3, ![16, 512, 1]⟩
abbrev S16x512x512 : Shape := ⟨3, ![16, 512, 512]⟩

abbrev nBuf : Space → Nat
  | .hbm => 36
  | .vmem => 0
  | .smem => 0
  | _ => 0

abbrev bufTy : (tb : Table) → Fin (tcTables nBuf tb) → BufTy
  | .hbm, ⟨0, _⟩ => ⟨S16x512x56x56, .f32⟩
  | .hbm, ⟨1, _⟩ => ⟨S16x512x3136, .f32⟩
  | .hbm, ⟨2, _⟩ => ⟨S_, .f32⟩
  | .hbm, ⟨3, _⟩ => ⟨S16x512x3136, .f32⟩
  | .hbm, ⟨4, _⟩ => ⟨S16x512x3136, .f32⟩
  | .hbm, ⟨5, _⟩ => ⟨S_, .f32⟩
  | .hbm, ⟨6, _⟩ => ⟨S16x512, .f32⟩
  | .hbm, ⟨7, _⟩ => ⟨S_, .f32⟩
  | .hbm, ⟨8, _⟩ => ⟨S16x512, .f32⟩
  | .hbm, ⟨9, _⟩ => ⟨S16x512, .f32⟩
  | .hbm, ⟨10, _⟩ => ⟨S16x512x1, .f32⟩
  | .hbm, ⟨11, _⟩ => ⟨S16x512x3136, .f32⟩
  | .hbm, ⟨12, _⟩ => ⟨S16x512x3136, .f32⟩
  | .hbm, ⟨13, _⟩ => ⟨S16x512x3136, .f32⟩
  | .hbm, ⟨14, _⟩ => ⟨S_, .f32⟩
  | .hbm, ⟨15, _⟩ => ⟨S16x512, .f32⟩
  | .hbm, ⟨16, _⟩ => ⟨S16x512x1, .f32⟩
  | .hbm, ⟨17, _⟩ => ⟨S16x512x3136, .f32⟩
  | .hbm, ⟨18, _⟩ => ⟨S16x512x3136, .f32⟩
  | .hbm, ⟨19, _⟩ => ⟨S16x512x512, .f32⟩
  | .hbm, ⟨20, _⟩ => ⟨S_, .f32⟩
  | .hbm, ⟨21, _⟩ => ⟨S16x512, .f32⟩
  | .hbm, ⟨22, _⟩ => ⟨S_, .f32⟩
  | .hbm, ⟨23, _⟩ => ⟨S16x512, .f32⟩
  | .hbm, ⟨24, _⟩ => ⟨S16x512, .f32⟩
  | .hbm, ⟨25, _⟩ => ⟨S16x512x1, .f32⟩
  | .hbm, ⟨26, _⟩ => ⟨S16x512x512, .f32⟩
  | .hbm, ⟨27, _⟩ => ⟨S16x512x512, .f32⟩
  | .hbm, ⟨28, _⟩ => ⟨S16x512x512, .f32⟩
  | .hbm, ⟨29, _⟩ => ⟨S_, .f32⟩
  | .hbm, ⟨30, _⟩ => ⟨S16x512, .f32⟩
  | .hbm, ⟨31, _⟩ => ⟨S16x512x1, .f32⟩
  | .hbm, ⟨32, _⟩ => ⟨S16x512x512, .f32⟩
  | .hbm, ⟨33, _⟩ => ⟨S16x512x512, .f32⟩
  | .hbm, ⟨34, _⟩ => ⟨S16x512x3136, .f32⟩
  | .hbm, ⟨35, _⟩ => ⟨S16x512x56x56, .f32⟩
  | _, _ => ⟨S16x512x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_cst_4 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_5 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  shapeCasts_S16x512x56x56_S16x512x3136 : S16x512x56x56.ShapeCasts S16x512x3136
  bcast_S_S16x512x3136 : S_.BroadcastsInDim S16x512x3136 (![] : Fin 0 → Fin S16x512x3136.rank)
  reducesTo_S16x512x3136_S16x512_d2 : S16x512x3136.ReducesTo [2] S16x512
  h_S_ : 0 < S_.numel
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S16x512x1_S16x512x3136_0_1_2 : S16x512x1.BroadcastsInDim S16x512x3136 (![0, 1, 2] : Fin 3 → Fin S16x512x3136.rank)
  reducesTo_S16x512x512_S16x512_d2 : S16x512x512.ReducesTo [2] S16x512
  bcast_S16x512x1_S16x512x512_0_1_2 : S16x512x1.BroadcastsInDim S16x512x512 (![0, 1, 2] : Fin 3 → Fin S16x512x512.rank)
  shapeCasts_S16x512x3136_S16x512x56x56 : S16x512x3136.ShapeCasts S16x512x56x56
  dot_S16x512x3136_S16x512x3136_S16x512x512_2_2_1_1_0_0_wf : DotDims.WF S16x512x3136 S16x512x3136 S16x512x512 [2] [2] [1] [1] [0] [0]
  dot_S16x512x512_S16x512x3136_S16x512x3136_2_1_1_2_0_0_wf : DotDims.WF S16x512x512 S16x512x3136 S16x512x3136 [2] [1] [1] [2] [0] [0]

variable [Facts₀]

def dot_S16x512x3136_S16x512x3136_S16x512x512_2_2_1_1_0_0 : DotDims S16x512x3136 S16x512x3136 S16x512x512 where
  lhsContracting := [2]
  rhsContracting := [2]
  lhsNonContracting := [1]
  rhsNonContracting := [1]
  lhsBatch := [0]
  rhsBatch := [0]
  wf := dot_S16x512x3136_S16x512x3136_S16x512x512_2_2_1_1_0_0_wf
def dot_S16x512x512_S16x512x3136_S16x512x3136_2_1_1_2_0_0 : DotDims S16x512x512 S16x512x3136 S16x512x3136 where
  lhsContracting := [2]
  rhsContracting := [1]
  lhsNonContracting := [1]
  rhsNonContracting := [2]
  lhsBatch := [0]
  rhsBatch := [0]
  wf := dot_S16x512x512_S16x512x3136_S16x512x3136_2_1_1_2_0_0_wf

class Facts : Prop extends Facts₀ where

variable [Facts]
-- ==== Proof.Spec.lean ====
/-
  The function both programs compute, stated once over the extended reals.

  For one batch element, write `f d j` for the `[512, 3136]` matrix of channels by spatial positions.
  For a channel with row `a = f c`:
    * `p = softmax (2 · a)` over the 3136 positions,
    * `B d = ∑ j, p j · f d j` for each of the 512 channels `d`,
    * `q = softmax B` over the 512 channels,
    * the output row is `k ↦ ∑ d, q d · f d k`.
  A softmax here is `exp (s k − M) / ∑ j, exp (s j − M)` with `M` the maximum of the family, taken as the fold
  of `max` from `−∞`; the quotient is the ideal instance's division.
-/
import Idealize.ShloMosaic.PureOps.Ideal
import Idealize.ShloMosaic.Lib.ValueIdx

noncomputable section

open scoped BigOperators

namespace Cert.Spec

open Idealize.ShloMosaic Idealize.ShloMosaic.ValueIdx

/-- The scale `2.0` of the first softmax, as the f32 word both programs carry. -/
abbrev two : EReal := Ideal.ofBits .f32 0x40000000#32
/-- The value `−∞` every maximum starts from, as the f32 word both programs carry. -/
abbrev negInf : EReal := Ideal.ofBits .f32 0xFF800000#32

/-- The maximum of a finite family: the fold of `max` from `−∞`. -/
def fmax {n : Nat} (s : Fin n → EReal) : EReal := Finset.univ.fold max negInf s

/-- The softmax of a finite family: each entry's exponential after subtracting the family's maximum, over the
    sum of those exponentials. -/
def softmax {n : Nat} (s : Fin n → EReal) (k : Fin n) : EReal :=
  Ideal.div (Ideal.exp (s k - fmax s)) (∑ j, Ideal.exp (s j - fmax s))

/-- Starting the fold from `b` and then taking the maximum with `b` once more changes nothing: the fold is
    already above `b`. -/
theorem max_fold {n : Nat} (b : EReal) (s : Fin n → EReal) :
    max b (Finset.univ.fold max b s) = Finset.univ.fold max b s :=
  max_eq_right ((Finset.le_fold_max (s := Finset.univ) (f := s) (b := b) (c := b)).2 (Or.inl le_rfl))

/-- One output row: from the row `a` of one channel and the whole matrix `g` of the batch element. -/
def row (a : Fin 3136 → EReal) (g : Fin 512 → Fin 3136 → EReal) (k : Fin 3136) : EReal :=
  ∑ d : Fin 512, softmax (fun d' => ∑ j : Fin 3136, softmax (fun j' => a j' * two) j * g d' j) d * g d k

/-- The whole result as a function of the `[16, 512, 3136]` array, by coordinates: batch element `n`, channel
    `c`, position `k`. -/
def atCoords (f : (⟨3, ![16, 512, 3136]⟩ : Shape).Idx → EReal) (n : Fin 16) (c : Fin 512) (k : Fin 3136) : EReal :=
  row (fun j => f (ix3 n c j)) (fun d j => f (ix3 n d j)) k

/-- The same as a function of the index. -/
def whole (f : (⟨3, ![16, 512, 3136]⟩ : Shape).Idx → EReal) : (⟨3, ![16, 512, 3136]⟩ : Shape).Idx → EReal :=
  fun i => atCoords f (i 0) (i 1) (i 2)

theorem whole_ix3 (f : (⟨3, ![16, 512, 3136]⟩ : Shape).Idx → EReal) (n : Fin 16) (c : Fin 512) (k : Fin 3136) :
    whole f (ix3 n c k) = atCoords f n c k := rfl

end Cert.Spec

end
-- ==== Proof.KernelRow.lean ====
/-
  One grid point of the kernel, read index by index over the extended reals.

  The body loads a `[1, 256, 3136]` block `x0` of rows and the `[1, 512, 3136]` block `x1` of the whole batch
  element, and stores one `[1, 256, 3136]` block. Entry `(0, r, k)` of what it stores is the specification's
  output row built from row `r` of `x0` and the matrix `x1`, at position `k`:
    * dropping and adding the leading unit axis reads the same entry;
    * a row maximum is the fold of `max` from `−∞` along the row, a row sum the sum along it, and the
      `[256] → [256, 1] → [256, N]` broadcast reads the row's value at every column;
    * a matrix product into a zero accumulator is the sum over the contracted axis of the products;
    * a change of float format is the identity.
-/
import proofs.«118700_j1580547969643_2_alg».proof.Proof.Gen.KernelIdeal.Skeleton
import proofs.«118700_j1580547969643_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Row

open Idealize.ShloMosaic Idealize.ShloMosaic.ValueIdx Cert.KernelIdeal Cert.KernelIdeal.Gen

/-! ## The unit-axis casts -/

/-- Row `r`, column `k` of a `[1, 256, 3136]` block viewed `[256, 3136]` is its entry `(0, r, k)`. -/
theorem dropUnit256 {α : Type} (x : S1x256x3136.Idx → α) (r : Fin 256) (k : Fin 3136) :
    shapeCast S256x3136 x shapeCasts_S1x256x3136_S256x3136 (ix2 r k) = x (ix3 (0 : Fin 1) r k) :=
  shapeCast_apply x shapeCasts_S1x256x3136_S256x3136 (ix2 r k) (ix3 (0 : Fin 1) r k) (by
    rw [Shape.rowMajor_val_three, Shape.rowMajor_val_two]
    show (0 * 256 + r.val) * 3136 + k.val = r.val * 3136 + k.val
    omega)

/-- Row `d`, column `k` of a `[1, 512, 3136]` block viewed `[512, 3136]` is its entry `(0, d, k)`. -/
theorem dropUnit512 {α : Type} (x : S1x512x3136.Idx → α) (d : Fin 512) (k : Fin 3136) :
    shapeCast S512x3136 x shapeCasts_S1x512x3136_S512x3136 (ix2 d k) = x (ix3 (0 : Fin 1) d k) :=
  shapeCast_apply x shapeCasts_S1x512x3136_S512x3136 (ix2 d k) (ix3 (0 : Fin 1) d k) (by
    rw [Shape.rowMajor_val_three, Shape.rowMajor_val_two]
    show (0 * 512 + d.val) * 3136 + k.val = d.val * 3136 + k.val
    omega)

/-- Entry `(0, r, k)` of a `[256, 3136]` value viewed `[1, 256, 3136]` is its row `r`, column `k`. -/
theorem addUnit256 {α : Type} (w : S256x3136.Idx → α) (r : Fin 256) (k : Fin 3136) :
    shapeCast S1x256x3136 w shapeCasts_S256x3136_S1x256x3136 (ix3 (0 : Fin 1) r k) = w (ix2 r k) :=
  shapeCast_apply w shapeCasts_S256x3136_S1x256x3136 (ix3 (0 : Fin 1) r k) (ix2 r k) (by
    rw [Shape.rowMajor_val_three, Shape.rowMajor_val_two]
    show r.val * 3136 + k.val = (0 * 256 + r.val) * 3136 + k.val
    omega)

/-! ## A per-row value broadcast along the row -/

/-- A per-row value `u`, made a column and broadcast along 3136 columns, reads `u r` at `(r, k)`. -/
theorem col3136 (u : FVec Ideal S256 .f32) (r : Fin 256) (k : Fin 3136) :
    broadcastTo S256x3136 (shapeCast S256x1 u shapeCasts_S256_S256x1) broadcasts_S256x1_S256x3136 (ix2 r k) = u (ix1 r) :=
  (broadcastTo_apply _ broadcasts_S256x1_S256x3136 (ix2 r k) (ix2 r (0 : Fin 1)) (fun a => by
      match a with
      | ⟨0, _⟩ => show r.val = if (256 : Nat) = 1 then 0 else r.val; rw [if_neg (by decide)]
      | ⟨1, _⟩ => show 0 = if (1 : Nat) = 1 then 0 else k.val; rw [if_pos rfl])).trans
    (shapeCast_apply u shapeCasts_S256_S256x1 (ix2 r (0 : Fin 1)) (ix1 r) (by
      rw [Shape.rowMajor_val_one, Shape.rowMajor_val_two]
      show r.val = r.val * 1 + 0
      omega))

/-- The same along 512 columns. -/
theorem col512 (u : FVec Ideal S256 .f32) (r : Fin 256) (d : Fin 512) :
    broadcastTo S256x512 (shapeCast S256x1 u shapeCasts_S256_S256x1) broadcasts_S256x1_S256x512 (ix2 r d) = u (ix1 r) :=
  (broadcastTo_apply _ broadcasts_S256x1_S256x512 (ix2 r d) (ix2 r (0 : Fin 1)) (fun a => by
      match a with
      | ⟨0, _⟩ => show r.val = if (256 : Nat) = 1 then 0 else r.val; rw [if_neg (by decide)]
      | ⟨1, _⟩ => show 0 = if (1 : Nat) = 1 then 0 else d.val; rw [if_pos rfl])).trans
    (shapeCast_apply u shapeCasts_S256_S256x1 (ix2 r (0 : Fin 1)) (ix1 r) (by
      rw [Shape.rowMajor_val_one, Shape.rowMajor_val_two]
      show r.val = r.val * 1 + 0
      omega))

/-! ## Row reductions -/

/-- Inserting column `k` into the row index `r` gives `(r, k)`. -/
theorem lift3136 (r : Fin 256) (k : Fin 3136) : reduces_S256x3136_S256.lift (ix1 r) k = ix2 r k :=
  funext fun a => Fin.ext (by match a with | ⟨0, _⟩ => rfl | ⟨1, _⟩ => rfl)
theorem lift512 (r : Fin 256) (d : Fin 512) : reduces_S256x512_S256.lift (ix1 r) d = ix2 r d :=
  funext fun a => Fin.ext (by match a with | ⟨0, _⟩ => rfl | ⟨1, _⟩ => rfl)

/-- The maximum along a row of 3136 entries. -/
theorem rowmax3136 (v : FVec Ideal S256x3136 .f32) (r : Fin 256) :
    multiReduction .maximumf [1] S256 v 0xFF800000#32 reduces_S256x3136_S256 (.inl rfl) rfl (ix1 r)
      = Spec.fmax (fun k : Fin 3136 => v (ix2 r k)) := by
  refine (Ideal.multiReduction_maximumf_single v 0xFF800000#32 reduces_S256x3136_S256 (.inl rfl) rfl (ix1 r)).trans ?_
  unfold Spec.fmax
  refine congrArg (Finset.univ.fold max _) (funext fun k => ?_)
  exact congrArg v (lift3136 r k)

/-- The maximum along a row of 512 entries. -/
theorem rowmax512 (v : FVec Ideal S256x512 .f32) (r : Fin 256) :
    multiReduction .maximumf [1] S256 v 0xFF800000#32 reduces_S256x512_S256 (.inl rfl) rfl (ix1 r)
      = Spec.fmax (fun d : Fin 512 => v (ix2 r d)) := by
  refine (Ideal.multiReduction_maximumf_single v 0xFF800000#32 reduces_S256x512_S256 (.inl rfl) rfl (ix1 r)).trans ?_
  unfold Spec.fmax
  refine congrArg (Finset.univ.fold max _) (funext fun d => ?_)
  exact congrArg v (lift512 r d)

/-- The sum along a row of 3136 entries. -/
theorem rowsum3136 (v : FVec Ideal S256x3136 .f32) (r : Fin 256) :
    multiReduction .add [1] S256 v 0x00000000#32 reduces_S256x3136_S256 (.inl rfl) rfl (ix1 r)
      = ∑ k : Fin 3136, v (ix2 r k) := by
  refine (Ideal.multiReduction_add_single v 0x00000000#32 reduces_S256x3136_S256 (.inl rfl) rfl (ix1 r)).trans ?_
  exact Finset.sum_congr rfl fun k _ => congrArg v (lift3136 r k)

/-- The sum along a row of 512 entries. -/
theorem rowsum512 (v : FVec Ideal S256x512 .f32) (r : Fin 256) :
    multiReduction .add [1] S256 v 0x00000000#32 reduces_S256x512_S256 (.inl rfl) rfl (ix1 r)
      = ∑ d : Fin 512, v (ix2 r d) := by
  refine (Ideal.multiReduction_add_single v 0x00000000#32 reduces_S256x512_S256 (.inl rfl) rfl (ix1 r)).trans ?_
  exact Finset.sum_congr rfl fun d _ => congrArg v (lift512 r d)

/-! ## The row softmax, as the body spells it -/

/-- The exponentials of a `[256, 3136]` value after subtracting each row's maximum. -/
def ex3136 (v : FVec Ideal S256x3136 .f32) : FVec Ideal S256x3136 .f32 :=
  exp (subf v (broadcastTo S256x3136 (shapeCast S256x1 (multiReduction .maximumf [1] S256 v 0xFF800000#32 reduces_S256x3136_S256 (.inl rfl) rfl) shapeCasts_S256_S256x1) broadcasts_S256x1_S256x3136))
/-- … divided by each row's sum of them. -/
def sm3136 (v : FVec Ideal S256x3136 .f32) : FVec Ideal S256x3136 .f32 :=
  divf (ex3136 v) (broadcastTo S256x3136 (shapeCast S256x1 (multiReduction .add [1] S256 (ex3136 v) 0x00000000#32 reduces_S256x3136_S256 (.inl rfl) rfl) shapeCasts_S256_S256x1) broadcasts_S256x1_S256x3136)

theorem ex3136_apply (v : FVec Ideal S256x3136 .f32) (r : Fin 256) (k : Fin 3136) :
    ex3136 v (ix2 r k) = Ideal.exp (v (ix2 r k) - Spec.fmax (fun j : Fin 3136 => v (ix2 r j))) := by
  have h : ex3136 v (ix2 r k) = Ideal.exp (v (ix2 r k) - broadcastTo S256x3136 (shapeCast S256x1 (multiReduction .maximumf [1] S256 v 0xFF800000#32 reduces_S256x3136_S256 (.inl rfl) rfl) shapeCasts_S256_S256x1) broadcasts_S256x1_S256x3136 (ix2 r k)) := rfl
  rw [h, col3136, rowmax3136]

/-- Row `r` of it is the softmax of row `r`. -/
theorem sm3136_apply (v : FVec Ideal S256x3136 .f32) (r : Fin 256) (k : Fin 3136) :
    sm3136 v (ix2 r k) = Spec.softmax (fun j : Fin 3136 => v (ix2 r j)) k := by
  have h : sm3136 v (ix2 r k) = Ideal.div (ex3136 v (ix2 r k)) (broadcastTo S256x3136 (shapeCast S256x1 (multiReduction .add [1] S256 (ex3136 v) 0x00000000#32 reduces_S256x3136_S256 (.inl rfl) rfl) shapeCasts_S256_S256x1) broadcasts_S256x1_S256x3136 (ix2 r k)) := rfl
  rw [h, col3136, rowsum3136, ex3136_apply]
  unfold Spec.softmax
  refine congrArg (Ideal.div _) (Finset.sum_congr rfl fun j _ => ?_)
  exact ex3136_apply v r j

/-- The same over rows of 512 entries. -/
def ex512 (v : FVec Ideal S256x512 .f32) : FVec Ideal S256x512 .f32 :=
  exp (subf v (broadcastTo S256x512 (shapeCast S256x1 (multiReduction .maximumf [1] S256 v 0xFF800000#32 reduces_S256x512_S256 (.inl rfl) rfl) shapeCasts_S256_S256x1) broadcasts_S256x1_S256x512))
def sm512 (v : FVec Ideal S256x512 .f32) : FVec Ideal S256x512 .f32 :=
  divf (ex512 v) (broadcastTo S256x512 (shapeCast S256x1 (multiReduction .add [1] S256 (ex512 v) 0x00000000#32 reduces_S256x512_S256 (.inl rfl) rfl) shapeCasts_S256_S256x1) broadcasts_S256x1_S256x512)

theorem ex512_apply (v : FVec Ideal S256x512 .f32) (r : Fin 256) (d : Fin 512) :
    ex512 v (ix2 r d) = Ideal.exp (v (ix2 r d) - Spec.fmax (fun j : Fin 512 => v (ix2 r j))) := by
  have h : ex512 v (ix2 r d) = Ideal.exp (v (ix2 r d) - broadcastTo S256x512 (shapeCast S256x1 (multiReduction .maximumf [1] S256 v 0xFF800000#32 reduces_S256x512_S256 (.inl rfl) rfl) shapeCasts_S256_S256x1) broadcasts_S256x1_S256x512 (ix2 r d)) := rfl
  rw [h, col512, rowmax512]

theorem sm512_apply (v : FVec Ideal S256x512 .f32) (r : Fin 256) (d : Fin 512) :
    sm512 v (ix2 r d) = Spec.softmax (fun j : Fin 512 => v (ix2 r j)) d := by
  have h : sm512 v (ix2 r d) = Ideal.div (ex512 v (ix2 r d)) (broadcastTo S256x512 (shapeCast S256x1 (multiReduction .add [1] S256 (ex512 v) 0x00000000#32 reduces_S256x512_S256 (.inl rfl) rfl) shapeCasts_S256_S256x1) broadcasts_S256x1_S256x512 (ix2 r d)) := rfl
  rw [h, col512, rowsum512, ex512_apply]
  unfold Spec.softmax
  refine congrArg (Ideal.div _) (Finset.sum_congr rfl fun j _ => ?_)
  exact ex512_apply v r j

/-! ## The two matrix products -/

/-- The operand indices of the first product at output index `i` and contraction index `q`, by coordinates: the
    left operand's row is the output's row, the right operand's row is the output's column, and both columns are the
    contraction coordinate. -/
theorem mm1_lhs0 (i : S256x512.Idx) (q : dot_S256x3136_S512x3136_S256x512_1_1_0_0_n_n.contr.Idx) : (dot_S256x3136_S512x3136_S256x512_1_1_0_0_n_n.lhsIdx i q 0).val = (i 0).val := by
  unfold DotDims.lhsIdx
  rw [dif_neg (show ¬(0 : Fin S256x3136.rank) ∈ dot_S256x3136_S512x3136_S256x512_1_1_0_0_n_n.lhsBatch by decide), dif_pos (show (0 : Fin S256x3136.rank) ∈ dot_S256x3136_S512x3136_S256x512_1_1_0_0_n_n.lhsNonContracting by decide)]
  rfl
theorem mm1_lhs1 (i : S256x512.Idx) (q : dot_S256x3136_S512x3136_S256x512_1_1_0_0_n_n.contr.Idx) : (dot_S256x3136_S512x3136_S256x512_1_1_0_0_n_n.lhsIdx i q 1).val = (q ⟨0, by decide⟩).val :=
  dot_S256x3136_S512x3136_S256x512_1_1_0_0_n_n.lhsIdx_val_of_single rfl i q
theorem mm1_rhs0 (i : S256x512.Idx) (q : dot_S256x3136_S512x3136_S256x512_1_1_0_0_n_n.contr.Idx) : (dot_S256x3136_S512x3136_S256x512_1_1_0_0_n_n.rhsIdx i q 0).val = (i 1).val := by
  unfold DotDims.rhsIdx
  rw [dif_neg (show ¬(0 : Fin S512x3136.rank) ∈ dot_S256x3136_S512x3136_S256x512_1_1_0_0_n_n.rhsBatch by decide), dif_pos (show (0 : Fin S512x3136.rank) ∈ dot_S256x3136_S512x3136_S256x512_1_1_0_0_n_n.rhsNonContracting by decide)]
  rfl
theorem mm1_rhs1 (i : S256x512.Idx) (q : dot_S256x3136_S512x3136_S256x512_1_1_0_0_n_n.contr.Idx) : (dot_S256x3136_S512x3136_S256x512_1_1_0_0_n_n.rhsIdx i q 1).val = (q ⟨0, by decide⟩).val :=
  dot_S256x3136_S512x3136_S256x512_1_1_0_0_n_n.rhsIdx_val_of_single rfl i q

/-- `[256, 3136] × [512, 3136]`, contracting the 3136 positions: entry `(r, d)` is `∑ j, P (r, j) · X (d, j)`. -/
theorem mm1_apply (P : FVec Ideal S256x3136 .bf16) (X : FVec Ideal S512x3136 .bf16) (r : Fin 256) (d : Fin 512) :
    matmul dot_S256x3136_S512x3136_S256x512_1_1_0_0_n_n none P X (constant (F := Ideal) S256x512 .f32 0x00000000#32) (ix2 r d)
      = ∑ j : Fin 3136, P (ix2 r j) * X (ix2 d j) := by
  refine (Ideal.matmul_constant_zero_apply dot_S256x3136_S512x3136_S256x512_1_1_0_0_n_n none P X (ix2 r d)).trans ?_
  rw [← Equiv.sum_comp (contrEquiv1 dot_S256x3136_S512x3136_S256x512_1_1_0_0_n_n 3136 rfl rfl).symm]
  refine Finset.sum_congr rfl fun j _ => ?_
  have hk := contrEquiv1_symm_val dot_S256x3136_S512x3136_S256x512_1_1_0_0_n_n 3136 rfl rfl j
  have el : dot_S256x3136_S512x3136_S256x512_1_1_0_0_n_n.lhsIdx (ix2 r d) ((contrEquiv1 dot_S256x3136_S512x3136_S256x512_1_1_0_0_n_n 3136 rfl rfl).symm j) = ix2 r j := funext fun a => Fin.ext (by
    match a with
    | ⟨0, _⟩ => exact mm1_lhs0 _ _
    | ⟨1, _⟩ => exact (mm1_lhs1 _ _).trans hk)
  have er : dot_S256x3136_S512x3136_S256x512_1_1_0_0_n_n.rhsIdx (ix2 r d) ((contrEquiv1 dot_S256x3136_S512x3136_S256x512_1_1_0_0_n_n 3136 rfl rfl).symm j) = ix2 d j := funext fun a => Fin.ext (by
    match a with
    | ⟨0, _⟩ => exact mm1_rhs0 _ _
    | ⟨1, _⟩ => exact (mm1_rhs1 _ _).trans hk)
  rw [el, er]

/-- The operand indices of the second product: the left operand's row is the output's row, the right operand's
    column is the output's column, and the left column and right row are the contraction coordinate. -/
theorem mm2_lhs0 (i : S256x3136.Idx) (q : dot_S256x512_S512x3136_S256x3136_1_0_0_1_n_n.contr.Idx) : (dot_S256x512_S512x3136_S256x3136_1_0_0_1_n_n.lhsIdx i q 0).val = (i 0).val := by
  unfold DotDims.lhsIdx
  rw [dif_neg (show ¬(0 : Fin S256x512.rank) ∈ dot_S256x512_S512x3136_S256x3136_1_0_0_1_n_n.lhsBatch by decide), dif_pos (show (0 : Fin S256x512.rank) ∈ dot_S256x512_S512x3136_S256x3136_1_0_0_1_n_n.lhsNonContracting by decide)]
  rfl
theorem mm2_lhs1 (i : S256x3136.Idx) (q : dot_S256x512_S512x3136_S256x3136_1_0_0_1_n_n.contr.Idx) : (dot_S256x512_S512x3136_S256x3136_1_0_0_1_n_n.lhsIdx i q 1).val = (q ⟨0, by decide⟩).val :=
  dot_S256x512_S512x3136_S256x3136_1_0_0_1_n_n.lhsIdx_val_of_single rfl i q
theorem mm2_rhs0 (i : S256x3136.Idx) (q : dot_S256x512_S512x3136_S256x3136_1_0_0_1_n_n.contr.Idx) : (dot_S256x512_S512x3136_S256x3136_1_0_0_1_n_n.rhsIdx i q 0).val = (q ⟨0, by decide⟩).val :=
  dot_S256x512_S512x3136_S256x3136_1_0_0_1_n_n.rhsIdx_val_of_single rfl i q
theorem mm2_rhs1 (i : S256x3136.Idx) (q : dot_S256x512_S512x3136_S256x3136_1_0_0_1_n_n.contr.Idx) : (dot_S256x512_S512x3136_S256x3136_1_0_0_1_n_n.rhsIdx i q 1).val = (i 1).val := by
  unfold DotDims.rhsIdx
  rw [dif_neg (show ¬(1 : Fin S512x3136.rank) ∈ dot_S256x512_S512x3136_S256x3136_1_0_0_1_n_n.rhsBatch by decide), dif_pos (show (1 : Fin S512x3136.rank) ∈ dot_S256x512_S512x3136_S256x3136_1_0_0_1_n_n.rhsNonContracting by decide)]
  rfl

/-- `[256, 512] × [512, 3136]`, contracting the 512 channels: entry `(r, k)` is `∑ d, Q (r, d) · X (d, k)`. -/
theorem mm2_apply (Q : FVec Ideal S256x512 .bf16) (X : FVec Ideal S512x3136 .bf16) (r : Fin 256) (k : Fin 3136) :
    matmul dot_S256x512_S512x3136_S256x3136_1_0_0_1_n_n none Q X (constant (F := Ideal) S256x3136 .f32 0x00000000#32) (ix2 r k)
      = ∑ d : Fin 512, Q (ix2 r d) * X (ix2 d k) := by
  refine (Ideal.matmul_constant_zero_apply dot_S256x512_S512x3136_S256x3136_1_0_0_1_n_n none Q X (ix2 r k)).trans ?_
  rw [← Equiv.sum_comp (contrEquiv1 dot_S256x512_S512x3136_S256x3136_1_0_0_1_n_n 512 rfl rfl).symm]
  refine Finset.sum_congr rfl fun d _ => ?_
  have hk := contrEquiv1_symm_val dot_S256x512_S512x3136_S256x3136_1_0_0_1_n_n 512 rfl rfl d
  have el : dot_S256x512_S512x3136_S256x3136_1_0_0_1_n_n.lhsIdx (ix2 r k) ((contrEquiv1 dot_S256x512_S512x3136_S256x3136_1_0_0_1_n_n 512 rfl rfl).symm d) = ix2 r d := funext fun a => Fin.ext (by
    match a with
    | ⟨0, _⟩ => exact mm2_lhs0 _ _
    | ⟨1, _⟩ => exact (mm2_lhs1 _ _).trans hk)
  have er : dot_S256x512_S512x3136_S256x3136_1_0_0_1_n_n.rhsIdx (ix2 r k) ((contrEquiv1 dot_S256x512_S512x3136_S256x3136_1_0_0_1_n_n 512 rfl rfl).symm d) = ix2 d k := funext fun a => Fin.ext (by
    match a with
    | ⟨0, _⟩ => exact (mm2_rhs0 _ _).trans hk
    | ⟨1, _⟩ => exact mm2_rhs1 _ _)
  rw [el, er]

/-! ## The body's stored value -/

/-- The body's stored value with the two row softmaxes named. -/
def stored (x0 : FVec Ideal S1x256x3136 .f32) (x1 : FVec Ideal S1x512x3136 .bf16) : FVec Ideal S1x256x3136 .f32 :=
  shapeCast S1x256x3136
    (matmul dot_S256x512_S512x3136_S256x3136_1_0_0_1_n_n none
      (truncf .bf16 (sm512 (matmul dot_S256x3136_S512x3136_S256x512_1_1_0_0_n_n none
          (truncf .bf16 (sm3136 (mulf (shapeCast S256x3136 x0 shapeCasts_S1x256x3136_S256x3136) (broadcast S256x3136 (Scalar.ofBits (F := Ideal) .f32 0x40000000#32)))) bitsLt_bf16_f32)
          (shapeCast S512x3136 x1 shapeCasts_S1x512x3136_S512x3136) (constant (F := Ideal) S256x512 .f32 0x00000000#32))) bitsLt_bf16_f32)
      (shapeCast S512x3136 x1 shapeCasts_S1x512x3136_S512x3136) (constant (F := Ideal) S256x3136 .f32 0x00000000#32))
    shapeCasts_S256x3136_S1x256x3136

theorem pay_eq (x0 : FVec Ideal S1x256x3136 .f32) (x1 : FVec Ideal S1x512x3136 .bf16) :
    k0_pay1 (F := Ideal) x0 x1 = stored x0 x1 := rfl

/-- ENTRY `(0, r, k)` OF WHAT THE BODY STORES is the specification's output row of row `r` of the row block and
    the batch element's matrix, at position `k`. -/
theorem pay_apply (x0 : FVec Ideal S1x256x3136 .f32) (x1 : FVec Ideal S1x512x3136 .bf16) (r : Fin 256) (k : Fin 3136) :
    k0_pay1 (F := Ideal) x0 x1 (ix3 (0 : Fin 1) r k)
      = Spec.row (fun j => x0 (ix3 (0 : Fin 1) r j)) (fun d j => x1 (ix3 (0 : Fin 1) d j)) k := by
  rw [pay_eq]
  unfold stored
  rw [addUnit256, mm2_apply]
  unfold Spec.row
  refine Finset.sum_congr rfl fun d _ => ?_
  rw [dropUnit512]
  refine congrArg (· * x1 (ix3 (0 : Fin 1) d k)) ?_
  refine (sm512_apply _ r d).trans ?_
  refine congrArg (fun s => Spec.softmax s d) (funext fun d' => ?_)
  refine (mm1_apply _ _ r d').trans ?_
  refine Finset.sum_congr rfl fun j _ => ?_
  rw [dropUnit512]
  refine congrArg (· * x1 (ix3 (0 : Fin 1) d' j)) ?_
  refine (sm3136_apply _ r j).trans ?_
  refine congrArg (fun s => Spec.softmax s j) (funext fun j' => ?_)
  show (shapeCast S256x3136 x0 shapeCasts_S1x256x3136_S256x3136) (ix2 r j') * Spec.two = _
  rw [dropUnit256]

end Cert.KernelIdeal.Row

end
-- ==== Proof.KernelWhole.lean ====
/-
  The kernel's run, read as a value over the extended reals.

  The grid has one point per batch element `n` and half `h` of the 512 channels. At that point the body reads
  rows `256·h … 256·h + 255` of batch element `n` (the row block) and the whole `[512, 3136]` matrix of batch
  element `n` (the second operand, the same array after a change of float format, which is the identity here),
  and writes rows `256·h … 256·h + 255` of batch element `n` of the result. Each written entry is the
  specification's value at its array index; the 32 blocks tile the `[16, 512, 3136]` result, so the result array
  is the specification of the reshaped argument, and the host's final reshape is applied to it.
-/
import proofs.«118700_j1580547969643_2_alg».proof.Proof.Gen.KernelIdeal.Frame
import proofs.«118700_j1580547969643_2_alg».proof.Proof.KernelRow
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the region finds -/

/-- The first operand's array is the argument reshaped to `[16, 512, 3136]`. -/
theorem V_rows (c : Dev nD) :
    (V m c main_v0 : S16x512x3136.Idx → EReal)
      = shapeCast S16x512x3136 (m ((c : Thread nD τ).loc main_arg0)) shapeCasts_S16x512x56x56_S16x512x3136 := by
  show StableHlo.after hostOps0 (fun b => m (c, b)) (Proc.devRef .tc main_v0) = _
  after_results
  rfl

/-- The second operand's array is the same: a change of float format is the identity on the extended reals. -/
theorem V_matrix (c : Dev nD) :
    (V m c main_v1 : S16x512x3136.Idx → EReal)
      = shapeCast S16x512x3136 (m ((c : Thread nD τ).loc main_arg0)) shapeCasts_S16x512x56x56_S16x512x3136 := by
  show StableHlo.after hostOps0 (fun b => m (c, b)) (Proc.devRef .tc main_v1) = _
  after_results
  rfl

/-! ## The index maps, decided over the 32 grid points -/

theorem hz : (![0, 0, 0] : Fin 3 → Nat) = fun _ => 0 := funext fun a => by fin_cases a <;> rfl

/-- The row block moves with the output block; the matrix block follows the batch element only; the output's block
    indices stay in range and its position index is always zero. -/
theorem idx_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (0 : Fin 3) ≤ 15
    ∧ win0_2.index t (1 : Fin 3) ≤ 1
    ∧ win0_2.index t (2 : Fin 3) = 0 :=
  (by decide +kernel : ∀ t : Fin grid0.N, _)

/-- Every (batch element, half) is some grid point's output block. -/
theorem idx_onto : ∀ (q0 : Fin 16) (q1 : Fin 2), ∃ t : Fin cfg0.N, win0_2.index t = ![q0.val, q1.val, 0] :=
  (by decide +kernel : ∀ (q0 : Fin 16) (q1 : Fin 2), ∃ t : Fin grid0.N, win0_2.index t = ![q0.val, q1.val, 0])

/-! ## The blocks a point reads -/

/-- Entry `(0, r, j)` of the row block at point `t` is the first operand's array at batch element = the output
    block's, channel = 256 · the output block's half + `r`, position `j`. -/
theorem rows_read (c : Dev nD) (t : Fin cfg0.N) (r : Fin 256) (j : Fin 3136) (i : S16x512x3136.Idx)
    (h0 : (i 0).val = win0_2.index t (0 : Fin 3)) (h1 : (i 1).val = win0_2.index t (1 : Fin 3) * 256 + r.val)
    (h2 : (i 2).val = j.val) :
    iblk m c 0 t (ix3 (0 : Fin 1) r j) = V m c main_v0 i := by
  obtain ⟨e0, e1, e2, -⟩ := idx_facts t
  show V m c main_v0 (((cfg0.win 0).blk t).view.emb (ix3 (0 : Fin 1) r j)) = V m c main_v0 i
  refine congrArg (V m c main_v0) (funext fun a => Fin.ext ?_)
  match a with
  | ⟨0, _⟩ => show win0_0.index t (0 : Fin 3) * 1 + 1 * 0 = (i 0).val; omega
  | ⟨1, _⟩ => show win0_0.index t (1 : Fin 3) * 256 + 1 * r.val = (i 1).val; omega
  | ⟨2, _⟩ => show win0_0.index t (2 : Fin 3) * 3136 + 1 * j.val = (i 2).val; omega

/-- Entry `(0, d, j)` of the matrix block at point `t` is the second operand's array at batch element = the
    output block's, channel `d`, position `j`. -/
theorem matrix_read (c : Dev nD) (t : Fin cfg0.N) (d : Fin 512) (j : Fin 3136) (i : S16x512x3136.Idx)
    (h0 : (i 0).val = win0_2.index t (0 : Fin 3)) (h1 : (i 1).val = d.val) (h2 : (i 2).val = j.val) :
    iblk m c 1 t (ix3 (0 : Fin 1) d j) = V m c main_v1 i := by
  obtain ⟨-, -, -, e0, e1, e2, -⟩ := idx_facts t
  show V m c main_v1 (((cfg0.win 1).blk t).view.emb (ix3 (0 : Fin 1) d j)) = V m c main_v1 i
  refine congrArg (V m c main_v1) (funext fun a => Fin.ext ?_)
  match a with
  | ⟨0, _⟩ => show win0_1.index t (0 : Fin 3) * 1 + 1 * 0 = (i 0).val; omega
  | ⟨1, _⟩ => show win0_1.index t (1 : Fin 3) * 512 + 1 * d.val = (i 1).val; omega
  | ⟨2, _⟩ => show win0_1.index t (2 : Fin 3) * 3136 + 1 * j.val = (i 2).val; omega

/-! ## What a point writes back -/

/-- The reshaped argument, the array both operands hold. -/
abbrev arg3 (c : Dev nD) : S16x512x3136.Idx → EReal :=
  shapeCast S16x512x3136 (m ((c : Thread nD τ).loc main_arg0)) shapeCasts_S16x512x56x56_S16x512x3136

/-- Entry `y` of what the body stores at point `t` is the specification at the array index under it. -/
theorem point_apply (c : Dev nD) (t : Fin cfg0.N) (y : S1x256x3136.Idx) :
    k0_pay1 (F := Ideal) (iblk m c 0 t) (iblk m c 1 t) y
      = Spec.whole (arg3 m c) (((cfg0.win 2).blk t).view.emb y) := by
  obtain ⟨z, r, k, rfl⟩ : ∃ (z : Fin 1) (r : Fin 256) (k : Fin 3136), y = ix3 z r k := ⟨y 0, y 1, y 2, eq_ix3 y⟩
  obtain rfl : z = 0 := Subsingleton.elim _ _
  obtain ⟨-, -, -, -, -, -, b0, b1, b2⟩ := idx_facts t
  refine (Row.pay_apply (iblk m c 0 t) (iblk m c 1 t) r k).trans ?_
  -- the array index under entry (0, r, k) of the output block, by coordinates
  have hn : win0_2.index t (0 : Fin 3) < 16 := by omega
  have hc : win0_2.index t (1 : Fin 3) * 256 + r.val < 512 := by have := r.isLt; omega
  have hw : ((cfg0.win 2).blk t).view.emb (ix3 (0 : Fin 1) r k)
      = ix3 (⟨win0_2.index t (0 : Fin 3), hn⟩ : Fin 16) (⟨win0_2.index t (1 : Fin 3) * 256 + r.val, hc⟩ : Fin 512) k :=
    funext fun a => Fin.ext (by
      match a with
      | ⟨0, _⟩ => show win0_2.index t (0 : Fin 3) * 1 + 1 * 0 = win0_2.index t (0 : Fin 3); omega
      | ⟨1, _⟩ => show win0_2.index t (1 : Fin 3) * 256 + 1 * r.val = win0_2.index t (1 : Fin 3) * 256 + r.val; omega
      | ⟨2, _⟩ => show win0_2.index t (2 : Fin 3) * 3136 + 1 * k.val = k.val; omega)
  rw [hw, Spec.whole_ix3]
  unfold Spec.atCoords
  have ea : (fun j : Fin 3136 => iblk m c 0 t (ix3 (0 : Fin 1) r j))
      = fun j => arg3 m c (ix3 (⟨win0_2.index t (0 : Fin 3), hn⟩ : Fin 16) (⟨win0_2.index t (1 : Fin 3) * 256 + r.val, hc⟩ : Fin 512) j) :=
    funext fun j => (rows_read m c t r j _ rfl rfl rfl).trans (congrFun (V_rows m c) _)
  have eg : (fun (d : Fin 512) (j : Fin 3136) => iblk m c 1 t (ix3 (0 : Fin 1) d j))
      = fun d j => arg3 m c (ix3 (⟨win0_2.index t (0 : Fin 3), hn⟩ : Fin 16) d j) :=
    funext fun d => funext fun j => (matrix_read m c t d j _ rfl rfl rfl).trans (congrFun (V_matrix m c) _)
  rw [ea, eg]

/-- WHAT POINT `t` WRITES BACK is block `t` of the specification of the reshaped argument. -/
theorem flushed_eq (c : Dev nD) (t : Fin cfg0.N) :
    (dats m 0 c).flushed 2 t = ((cfg0.win 2).blk t).view.read (Elt Ideal) (Spec.whole (arg3 m c)) := by
  show (cfg0.win 2).cut (grid0.coords t) ((dats m 0 c).after 2 t) = _
  rw [after0_2]
  unfold out0_2
  rw [View.canon_unit_zero hz]
  simp only [View.ld_unit_zero (S := S1x256x3136) hz, View.ld_unit_zero (S := S1x512x3136) hz]
  funext j
  exact point_apply m c t j

/-! ## The blocks tile the result -/

/-- An index of the array is in point `t`'s block iff each coordinate is in the block's range on its axis. -/
theorem mem_blk (t : Fin cfg0.N) (i : S16x512x3136.Idx) :
    i ∈ ((cfg0.win 2).blk t).view.set ↔ ∀ a : Fin 3, win0_2.index t a * S1x256x3136.size a ≤ (i a).val ∧ (i a).val < win0_2.index t a * S1x256x3136.size a + S1x256x3136.size a := by
  show i ∈ ((View.whole main_v2).slice (win0_2.rect t)).set ↔ _
  rw [View.set_slice_whole, Rect.mem_set_unit]
  exact Iff.rfl

/-- Every index of the result is in the block of the point at its batch element and its channel's half. -/
theorem cover (i : S16x512x3136.Idx) :
    ∃ t : Fin cfg0.N, (cfg0.win 2).flush t = true ∧ i ∈ ((cfg0.win 2).blk t).view.set := by
  have hi0 : (i 0).val < 16 := (i 0).isLt
  have hi1 : (i 1).val < 512 := (i 1).isLt
  have hi2 : (i 2).val < 3136 := (i 2).isLt
  obtain ⟨t, ht⟩ := idx_onto ⟨(i 0).val, hi0⟩ ⟨(i 1).val / 256, by omega⟩
  have q0 : win0_2.index t (0 : Fin 3) = (i 0).val := congrFun ht 0
  have q1 : win0_2.index t (1 : Fin 3) = (i 1).val / 256 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 3136 ≤ (i 2).val ∧ (i 2).val < win0_2.index t (2 : Fin 3) * 3136 + 3136; omega

/-- THE RESULT ARRAY after the region: the specification of the reshaped argument. -/
theorem final (c : Dev nD) : (dats m 0 c).arrAt 2 cfg0.N = Spec.whole (arg3 m c) :=
  (dats m 0 c).arrAt_eq_of_cover 2 (Spec.whole (arg3 m c)) (fun t _ => flushed_eq m c t) (cover)

/-! ## The host's final reshape, and the run -/

/-- What the program returns: the reshape to `[16, 512, 56, 56]` of the specification of the reshaped argument. -/
def result (c : Dev nD) : S16x512x56x56.Idx → EReal :=
  shapeCast S16x512x56x56 (Spec.whole (arg3 m c)) shapeCasts_S16x512x3136_S16x512x56x56

/-- After the region the one host operation reshapes the result array. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  unfold result
  refine congrArg (fun w => shapeCast S16x512x56x56 w shapeCasts_S16x512x3136_S16x512x56x56) ?_
  exact (Pipeline.withArrays_arr spec0 launch0.win.arr_inj c _ _ 2).trans (final m c)

/-- THE RUN: every weakly fair execution terminates with the result at `result` and the argument unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0) :=
  (θ_run defs _ _).mono (fun r h c =>
      ⟨((h c).2 main_v3 (Pipeline.mem_restRefs_of main_v3 (by decide) (by decide))).trans (tail_eq m c),
        ((h c).2 main_arg0 (Pipeline.mem_restRefs_of main_arg0 (by decide) (by decide))).trans (W_main_arg0 m (dats m) c)⟩)
    (run_main m ρ)

end Cert.KernelIdeal.Whole

end
-- ==== Proof.RefRow.lean ====
/-
  The reference, read index by index over the extended reals.

  Its `[16, 512, 3136]` result before the final reshape is the specification applied to the reshaped argument
  `f`: at batch element `n`, channel `c`, position `k` it is the output row built from row `(n, c)` of `f` and
  the matrix `f n`. Stage by stage:
    * `2 · f`, its maximum along the positions (a fold of `max` from `−∞`; taking the maximum with `−∞` once
      more changes nothing), the exponentials, their sum along the positions (from `0`), the quotient: the
      softmax of row `(n, c)`;
    * the batched product with `f` contracting the positions;
    * the softmax of that along the channels, by the same stages;
    * the batched product with `f` contracting the channels.
-/
import proofs.«118700_j1580547969643_2_alg».proof.Proof.Gen.ReferenceIdeal.Read
import proofs.«118700_j1580547969643_2_alg».proof.Proof.Spec
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.Read

/-- The host's maximum along one axis, at the ideal values: the fold of `max` from the initial value along that
    axis (the instance's `maximumf` is `max` on the extended reals). -/
theorem host_max_single {s t u : Shape} {a : Fin s.rank} (y : s.Idx → EReal) (init : u.Idx → EReal)
    (h' : s.ReducesTo [a] t) (h : s.Reduces [a] t) (hu : 0 < u.numel) (j : t.Idx) :
    Host.reduce (FloatOps.maximumf (F := Ideal) (φ := .f32)) y init h' hu j
      = (Finset.univ : Finset (Fin (s.size a))).fold max (init (Shape.Idx.first hu)) (y ∘ h.lift j) :=
  Host.reduce_eq_fold_single (α := EReal) (FloatOps.maximumf (F := Ideal) (φ := .f32)) y init h' h hu j

variable (x : (⟨S16x512x56x56, .f32⟩ : BufTy).Contents (Elt Ideal))

/-! ## The first softmax, along the positions -/

theorem scaled (n : Fin 16) (c : Fin 512) (k : Fin 3136) :
    val_main_v2 (F := Ideal) x (ix3 n c k) = val_main_v0 (F := Ideal) x (ix3 n c k) * Spec.two := by
  rw [val_main_v2_apply, val_main_v1_apply, val_main_cst_apply]
  rfl

theorem max1_raw (n : Fin 16) (c : Fin 512) :
    val_main_v3 (F := Ideal) x (ix2 n c) = Spec.fmax (fun k : Fin 3136 => val_main_v2 (F := Ideal) x (ix3 n c k)) := by
  unfold val_main_v3
  refine (host_max_single (val_main_v2 (F := Ideal) x) (val_main_cst_0 (F := Ideal))
    reducesTo_S16x512x3136_S16x512_d2 (by decide : S16x512x3136.Reduces [2] S16x512) h_S_ (ix2 n c)).trans ?_
  unfold Spec.fmax
  refine congrArg (Finset.univ.fold max _) (funext fun k => ?_)
  exact congrArg (val_main_v2 (F := Ideal) x) (funext fun a => Fin.ext (by match a with | ⟨0, _⟩ => rfl | ⟨1, _⟩ => rfl | ⟨2, _⟩ => rfl))

theorem max1 (n : Fin 16) (c : Fin 512) :
    val_main_v5 (F := Ideal) x (ix2 n c) = Spec.fmax (fun k : Fin 3136 => val_main_v2 (F := Ideal) x (ix3 n c k)) := by
  rw [val_main_v5_apply, val_main_v4_apply, val_main_cst_1_apply, max1_raw]
  exact Spec.max_fold _ _

theorem max1_bcast (n : Fin 16) (c : Fin 512) (k : Fin 3136) :
    val_main_v7 (F := Ideal) x (ix3 n c k) = val_main_v5 (F := Ideal) x (ix2 n c) := by
  rw [val_main_v7_apply, val_main_v6_apply]
  exact congrArg (val_main_v5 (F := Ideal) x) (funext fun a => Fin.ext (by match a with | ⟨0, _⟩ => rfl | ⟨1, _⟩ => rfl))

theorem exp1 (n : Fin 16) (c : Fin 512) (k : Fin 3136) :
    val_main_v9 (F := Ideal) x (ix3 n c k)
      = Ideal.exp (val_main_v2 (F := Ideal) x (ix3 n c k) - Spec.fmax (fun j : Fin 3136 => val_main_v2 (F := Ideal) x (ix3 n c j))) := by
  rw [val_main_v9_apply, val_main_v8_apply, max1_bcast, max1]
  rfl

theorem sum1 (n : Fin 16) (c : Fin 512) :
    val_main_v10 (F := Ideal) x (ix2 n c) = ∑ k : Fin 3136, val_main_v9 (F := Ideal) x (ix3 n c k) := by
  rw [val_main_v10_apply]
  have hz : (val_main_cst_2 (F := Ideal)) (Shape.Idx.first h_S_) = 0 := Ideal.ofBits_zero_f32
  rw [hz, zero_add]
  refine Finset.sum_congr rfl fun k _ => ?_
  exact congrArg (val_main_v9 (F := Ideal) x) (funext fun a => Fin.ext (by match a with | ⟨0, _⟩ => rfl | ⟨1, _⟩ => rfl | ⟨2, _⟩ => rfl))

theorem sum1_bcast (n : Fin 16) (c : Fin 512) (k : Fin 3136) :
    val_main_v12 (F := Ideal) x (ix3 n c k) = val_main_v10 (F := Ideal) x (ix2 n c) := by
  rw [val_main_v12_apply, val_main_v11_apply]
  exact congrArg (val_main_v10 (F := Ideal) x) (funext fun a => Fin.ext (by match a with | ⟨0, _⟩ => rfl | ⟨1, _⟩ => rfl))

theorem soft1 (n : Fin 16) (c : Fin 512) (k : Fin 3136) :
    val_main_v13 (F := Ideal) x (ix3 n c k)
      = Spec.softmax (fun j : Fin 3136 => val_main_v2 (F := Ideal) x (ix3 n c j)) k := by
  rw [val_main_v13_apply, sum1_bcast, sum1, exp1]
  unfold Spec.softmax
  refine congrArg (Ideal.div _) (Finset.sum_congr rfl fun j _ => ?_)
  exact exp1 x n c j

/-! ## The first product, contracting the positions -/

theorem prod1 (n : Fin 16) (c d : Fin 512) :
    val_main_v14 (F := Ideal) x (ix3 n c d)
      = ∑ j : Fin 3136, val_main_v13 (F := Ideal) x (ix3 n c j) * val_main_v0 (F := Ideal) x (ix3 n d j) := by
  rw [val_main_v14_apply]
  refine Finset.sum_congr rfl fun j _ => ?_
  have el : lidx_main_v14 (ix3 n c d) j = ix3 n c j := funext fun a => Fin.ext (by match a with | ⟨0, _⟩ => rfl | ⟨1, _⟩ => rfl | ⟨2, _⟩ => rfl)
  have er : ridx_main_v14 (ix3 n c d) j = ix3 n d j := funext fun a => Fin.ext (by match a with | ⟨0, _⟩ => rfl | ⟨1, _⟩ => rfl | ⟨2, _⟩ => rfl)
  rw [el, er]

/-! ## The second softmax, along the channels -/

theorem max2_raw (n : Fin 16) (c : Fin 512) :
    val_main_v15 (F := Ideal) x (ix2 n c) = Spec.fmax (fun d : Fin 512 => val_main_v14 (F := Ideal) x (ix3 n c d)) := by
  unfold val_main_v15
  refine (host_max_single (val_main_v14 (F := Ideal) x) (val_main_cst_3 (F := Ideal))
    reducesTo_S16x512x512_S16x512_d2 (by decide : S16x512x512.Reduces [2] S16x512) h_S_ (ix2 n c)).trans ?_
  unfold Spec.fmax
  refine congrArg (Finset.univ.fold max _) (funext fun d => ?_)
  exact congrArg (val_main_v14 (F := Ideal) x) (funext fun a => Fin.ext (by match a with | ⟨0, _⟩ => rfl | ⟨1, _⟩ => rfl | ⟨2, _⟩ => rfl))

theorem max2 (n : Fin 16) (c : Fin 512) :
    val_main_v17 (F := Ideal) x (ix2 n c) = Spec.fmax (fun d : Fin 512 => val_main_v14 (F := Ideal) x (ix3 n c d)) := by
  rw [val_main_v17_apply, val_main_v16_apply, val_main_cst_4_apply, max2_raw]
  exact Spec.max_fold _ _

theorem max2_bcast (n : Fin 16) (c d : Fin 512) :
    val_main_v19 (F := Ideal) x (ix3 n c d) = val_main_v17 (F := Ideal) x (ix2 n c) := by
  rw [val_main_v19_apply, val_main_v18_apply]
  exact congrArg (val_main_v17 (F := Ideal) x) (funext fun a => Fin.ext (by match a with | ⟨0, _⟩ => rfl | ⟨1, _⟩ => rfl))

theorem exp2 (n : Fin 16) (c d : Fin 512) :
    val_main_v21 (F := Ideal) x (ix3 n c d)
      = Ideal.exp (val_main_v14 (F := Ideal) x (ix3 n c d) - Spec.fmax (fun j : Fin 512 => val_main_v14 (F := Ideal) x (ix3 n c j))) := by
  rw [val_main_v21_apply, val_main_v20_apply, max2_bcast, max2]
  rfl

theorem sum2 (n : Fin 16) (c : Fin 512) :
    val_main_v22 (F := Ideal) x (ix2 n c) = ∑ d : Fin 512, val_main_v21 (F := Ideal) x (ix3 n c d) := by
  rw [val_main_v22_apply]
  have hz : (val_main_cst_5 (F := Ideal)) (Shape.Idx.first h_S_) = 0 := Ideal.ofBits_zero_f32
  rw [hz, zero_add]
  refine Finset.sum_congr rfl fun d _ => ?_
  exact congrArg (val_main_v21 (F := Ideal) x) (funext fun a => Fin.ext (by match a with | ⟨0, _⟩ => rfl | ⟨1, _⟩ => rfl | ⟨2, _⟩ => rfl))

theorem sum2_bcast (n : Fin 16) (c d : Fin 512) :
    val_main_v24 (F := Ideal) x (ix3 n c d) = val_main_v22 (F := Ideal) x (ix2 n c) := by
  rw [val_main_v24_apply, val_main_v23_apply]
  exact congrArg (val_main_v22 (F := Ideal) x) (funext fun a => Fin.ext (by match a with | ⟨0, _⟩ => rfl | ⟨1, _⟩ => rfl))

theorem soft2 (n : Fin 16) (c d : Fin 512) :
    val_main_v25 (F := Ideal) x (ix3 n c d)
      = Spec.softmax (fun j : Fin 512 => val_main_v14 (F := Ideal) x (ix3 n c j)) d := by
  rw [val_main_v25_apply, sum2_bcast, sum2, exp2]
  unfold Spec.softmax
  refine congrArg (Ideal.div _) (Finset.sum_congr rfl fun j _ => ?_)
  exact exp2 x n c j

/-! ## The second product, contracting the channels -/

theorem prod2 (n : Fin 16) (c : Fin 512) (k : Fin 3136) :
    val_main_v26 (F := Ideal) x (ix3 n c k)
      = ∑ d : Fin 512, val_main_v25 (F := Ideal) x (ix3 n c d) * val_main_v0 (F := Ideal) x (ix3 n d k) := by
  rw [val_main_v26_apply]
  refine Finset.sum_congr rfl fun d _ => ?_
  have el : lidx_main_v26 (ix3 n c k) d = ix3 n c d := funext fun a => Fin.ext (by match a with | ⟨0, _⟩ => rfl | ⟨1, _⟩ => rfl | ⟨2, _⟩ => rfl)
  have er : ridx_main_v26 (ix3 n c k) d = ix3 n d k := funext fun a => Fin.ext (by match a with | ⟨0, _⟩ => rfl | ⟨1, _⟩ => rfl | ⟨2, _⟩ => rfl)
  rw [el, er]

/-! ## The result -/

/-- THE REFERENCE'S `[16, 512, 3136]` RESULT is the specification applied to the reshaped argument. -/
theorem result3 : val_main_v26 (F := Ideal) x = Spec.whole (val_main_v0 (F := Ideal) x) := by
  funext i
  obtain ⟨n, c, k, rfl⟩ : ∃ (n : Fin 16) (c : Fin 512) (k : Fin 3136), i = ix3 n c k := ⟨i 0, i 1, i 2, eq_ix3 i⟩
  rw [Spec.whole_ix3, prod2]
  unfold Spec.atCoords Spec.row
  refine Finset.sum_congr rfl fun d _ => ?_
  refine congrArg (· * val_main_v0 (F := Ideal) x (ix3 n d k)) ?_
  refine (soft2 x n c d).trans ?_
  refine congrArg (fun s => Spec.softmax s d) (funext fun d' => ?_)
  refine (prod1 x n c d').trans ?_
  refine Finset.sum_congr rfl fun j _ => ?_
  refine congrArg (· * val_main_v0 (F := Ideal) x (ix3 n d' j)) ?_
  refine (soft1 x n c j).trans ?_
  exact congrArg (fun s => Spec.softmax s j) (funext fun j' => scaled x n c j')

/-- The reference's result: the reshape to `[16, 512, 56, 56]` of the specification applied to the reshape of
    the argument to `[16, 512, 3136]`. -/
theorem result :
    val_main_v27 (F := Ideal) x
      = shapeCast S16x512x56x56 (Spec.whole (shapeCast S16x512x3136 x shapeCasts_S16x512x56x56_S16x512x3136)) shapeCasts_S16x512x3136_S16x512x56x56 := by
  unfold val_main_v27
  rw [result3]
  rfl

end Cert.ReferenceIdeal.RefValue

end
-- ==== Proof.lean ====
/-
  The kernel and its reference compute one function over the extended reals.

  For each batch element, with `f` its `[512, 3136]` matrix of channels by spatial positions: the softmax of
  `2 · f` along the positions, its product with `fᵀ` (a `[512, 512]` matrix), the softmax of that along the
  channels, and its product with `f`. The reference does this for all 512 channels of all 16 batch elements at
  once; the kernel does it for 256 channels of one batch element per grid point, its second operand a copy of the
  same array in another float format (the identity on the extended reals), its matrix products into zero
  accumulators. Both are the specification `Spec.whole` of the argument reshaped to `[16, 512, 3136]`, reshaped
  back to `[16, 512, 56, 56]`: every step is the same operation on the same extended reals (a sum over the same
  finite index set, a fold of `max` from `−∞`, the ideal division), so no finiteness of the input is used.
  The idealization rewrote nothing, so `preserves` is trivial; the three frames are the kernels' frame runs and
  the reference's run with its result dropped.
-/
import proofs.«118700_j1580547969643_2_alg».proof.Defs
import proofs.«118700_j1580547969643_2_alg».proof.Proof.Gen.Kernel
import proofs.«118700_j1580547969643_2_alg».proof.Proof.Gen.Kernel.Skeleton
import proofs.«118700_j1580547969643_2_alg».proof.Proof.Gen.Kernel.Launch
import proofs.«118700_j1580547969643_2_alg».proof.Proof.Gen.Kernel.Points
import proofs.«118700_j1580547969643_2_alg».proof.Proof.Gen.Kernel.Frame
import proofs.«118700_j1580547969643_2_alg».proof.Proof.Gen.KernelIdeal
import proofs.«118700_j1580547969643_2_alg».proof.Proof.Gen.KernelIdeal.Skeleton
import proofs.«118700_j1580547969643_2_alg».proof.Proof.Gen.KernelIdeal.Launch
import proofs.«118700_j1580547969643_2_alg».proof.Proof.Gen.KernelIdeal.Points
import proofs.«118700_j1580547969643_2_alg».proof.Proof.Gen.KernelIdeal.Frame
import proofs.«118700_j1580547969643_2_alg».proof.Proof.Gen.ReferenceIdeal
import proofs.«118700_j1580547969643_2_alg».proof.Proof.Gen.Pre_finite_inputs
import proofs.«118700_j1580547969643_2_alg».proof.Proof.Gen.ReferenceIdeal.Read
import proofs.«118700_j1580547969643_2_alg».proof.Proof.KernelWhole
import proofs.«118700_j1580547969643_2_alg».proof.Proof.RefRow
import Idealize.ShloMosaic.Adequacy
import Idealize.ShloMosaic.Init

noncomputable section

namespace Cert.Proof

open Idealize.ShloMosaic Idealize.SL.Sem

/-- The word-level kernel runs and leaves its argument unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the argument, both programs end with the reshape of the specification of the
    reshaped argument: the kernel by its blocks tiling the result, the reference stage by stage. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result, hagree c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
